-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x128x128x128 : Shape := ⟨5, ![4, 3, 128, 128, 128]⟩
abbrev S_ : Shape := ⟨0, ![]⟩

class Facts : Prop where
  bcast_S_S4x3x128x128x128 : S_.BroadcastsInDim S4x3x128x128x128 (![] : Fin 0 → Fin S4x3x128x128x128.rank)
  reducesTo_S4x3x128x128x128_S_d0_1_2_3_4 : S4x3x128x128x128.ReducesTo [0, 1, 2, 3, 4] S_
  h_S_ : 0 < S_.numel

variable [Facts]

def fn {F : FTy → Type} [FloatOps F] (main_arg0 : FVec F S4x3x128x128x128 .f32) (main_arg1 : FVec F S4x3x128x128x128 .f32) : IVec S_ 1 :=
  let main_v0 : FVec F S4x3x128x128x128 .f32 := Host.absf main_arg0
  let main_cst : FVec F S_ .f32 := constant S_ .f32 0x7F800000#32
  let main_v1 : FVec F S4x3x128x128x128 .f32 := broadcastInDim S4x3x128x128x128 ![] bcast_S_S4x3x128x128x128 main_cst
  let main_v2 : IVec S4x3x128x128x128 1 := cmpf .olt main_v0 main_v1
  let main_c : IVec S_ 1 := constantI S_ 1 1#1
  let main_v3 : IVec S_ 1 := (fun x v => Host.reduce IntOp.andi x v reducesTo_S4x3x128x128x128_S_d0_1_2_3_4 h_S_) main_v2 main_c
  let main_v4 : FVec F S4x3x128x128x128 .f32 := Host.absf main_arg1
  let main_cst_0 : FVec F S_ .f32 := constant S_ .f32 0x7F800000#32
  let main_v5 : FVec F S4x3x128x128x128 .f32 := broadcastInDim S4x3x128x128x128 ![] bcast_S_S4x3x128x128x128 main_cst_0
  let main_v6 : IVec S4x3x128x128x128 1 := cmpf .olt main_v4 main_v5
  let main_c_1 : IVec S_ 1 := constantI S_ 1 1#1
  let main_v7 : IVec S_ 1 := (fun x v => Host.reduce IntOp.andi x v reducesTo_S4x3x128x128x128_S_d0_1_2_3_4 h_S_) main_v6 main_c_1
  let main_v8 : IVec S_ 1 := andi main_v3 main_v7
  main_v8
-- ==== Kernel.lean ====
abbrev S4x3x128x128x128 : Shape := ⟨5, ![4, 3, 128, 128, 128]⟩
abbrev S4x32x32x128 : Shape := ⟨4, ![4, 32, 32, 128]⟩
abbrev S1x3x32x128x128 : Shape := ⟨5, ![1, 3, 32, 128, 128]⟩
abbrev S1x8x32x128 : Shape := ⟨4, ![1, 8, 32, 128]⟩
abbrev S1x1x32x128x128 : Shape := ⟨5, ![1, 1, 32, 128, 128]⟩
abbrev S32x128x128 : Shape := ⟨3, ![32, 128, 128]⟩
abbrev S8x4x128x128 : Shape := ⟨4, ![8, 4, 128, 128]⟩
abbrev S8x128x128 : Shape := ⟨3, ![8, 128, 128]⟩
abbrev S8x32x4x128 : Shape := ⟨4, ![8, 32, 4, 128]⟩
abbrev S8x32x128 : Shape := ⟨3, ![8, 32, 128]⟩
abbrev S4x32x32x32x4 : Shape := ⟨5, ![4, 32, 32, 32, 4]⟩
abbrev S_ : Shape := ⟨0, ![]⟩
abbrev S4x32x32x32 : Shape := ⟨4, ![4, 32, 32, 32]⟩
abbrev S4x1x32x32x32 : Shape := ⟨5, ![4, 1, 32, 32, 32]⟩
abbrev S4x1x33x32x32 : Shape := ⟨5, ![4, 1, 33, 32, 32]⟩
abbrev S4x1x32x33x32 : Shape := ⟨5, ![4, 1, 32, 33, 32]⟩
abbrev S4x1x32x32x33 : Shape := ⟨5, ![4, 1, 32, 32, 33]⟩

abbrev nBuf : Space → Nat
  | .hbm => 54
  | .vmem => 6
  | .smem => 0
  | _ => 0

abbrev bufTy : (tb : Table) → Fin (tcTables nBuf tb) → BufTy
  | .hbm, ⟨0, _⟩ => ⟨S4x3x128x128x128, .f32⟩
  | .hbm, ⟨1, _⟩ => ⟨S4x3x128x128x128, .f32⟩
  | .hbm, ⟨2, _⟩ => ⟨S4x32x32x128, .f32⟩
  | .hbm, ⟨3, _⟩ => ⟨S4x32x32x32x4, .f32⟩
  | .hbm, ⟨4, _⟩ => ⟨S_, .f32⟩
  | .hbm, ⟨5, _⟩ => ⟨S4x32x32x32, .f32⟩
  | .hbm, ⟨6, _⟩ => ⟨S_, .f32⟩
  | .hbm, ⟨7, _⟩ => ⟨S4x32x32x32, .f32⟩
  | .hbm, ⟨8, _⟩ => ⟨S4x32x32x32, .f32⟩
  | .hbm, ⟨9, _⟩ => ⟨S4x1x32x32x32, .f32⟩
  | .hbm, ⟨10, _⟩ => ⟨S_, .i32⟩
  | .hbm, ⟨11, _⟩ => ⟨S_, .f32⟩
  | .hbm, ⟨12, _⟩ => ⟨S4x1x33x32x32, .f32⟩
  | .hbm, ⟨13, _⟩ => ⟨S4x1x32x32x32, .f32⟩
  | .hbm, ⟨14, _⟩ => ⟨S4x1x32x32x32, .f32⟩
  | .hbm, ⟨15, _⟩ => ⟨S4x1x32x32x32, .f32⟩
  | .hbm, ⟨16, _⟩ => ⟨S_, .f32⟩
  | .hbm, ⟨17, _⟩ => ⟨S4x1x32x32x32, .f32⟩
  | .hbm, ⟨18, _⟩ => ⟨S4x1x32x32x32, .f32⟩
  | .hbm, ⟨19, _⟩ => ⟨S_, .i32⟩
  | .hbm, ⟨20, _⟩ => ⟨S_, .f32⟩
  | .hbm, ⟨21, _⟩ => ⟨S4x1x33x32x32, .f32⟩
  | .hbm, ⟨22, _⟩ => ⟨S4x1x32x32x32, .f32⟩
  | .hbm, ⟨23, _⟩ => ⟨S4x1x32x32x32, .f32⟩
  | .hbm, ⟨24, _⟩ => ⟨S4x1x32x32x32, .f32⟩
  | .hbm, ⟨25, _⟩ => ⟨S4x1x32x32x32, .f32⟩
  | .hbm, ⟨26, _⟩ => ⟨S_, .i32⟩
  | .hbm, ⟨27, _⟩ => ⟨S_, .f32⟩
  | .hbm, ⟨28, _⟩ => ⟨S4x1x32x33x32, .f32⟩
  | .hbm, ⟨29, _⟩ => ⟨S4x1x32x32x32, .f32⟩
  | .hbm, ⟨30, _⟩ => ⟨S4x1x32x32x32, .f32⟩
  | .hbm, ⟨31, _⟩ => ⟨S4x1x32x32x32, .f32⟩
  | .hbm, ⟨32, _⟩ => ⟨S4x1x32x32x32, .f32⟩
  | .hbm, ⟨33, _⟩ => ⟨S_, .i32⟩
  | .hbm, ⟨34, _⟩ => ⟨S_, .f32⟩
  | .hbm, ⟨35, _⟩ => ⟨S4x1x32x33x32, .f32⟩
  | .hbm, ⟨36, _⟩ => ⟨S4x1x32x32x32, .f32⟩
  | .hbm, ⟨37, _⟩ => ⟨S4x1x32x32x32, .f32⟩
  | .hbm, ⟨38, _⟩ => ⟨S4x1x32x32x32, .f32⟩
  | .hbm, ⟨39, _⟩ => ⟨S4x1x32x32x32, .f32⟩
  | .hbm, ⟨40, _⟩ => ⟨S_, .i32⟩
  | .hbm, ⟨41, _⟩ => ⟨S_, .f32⟩
  | .hbm, ⟨42, _⟩ => ⟨S4x1x32x32x33, .f32⟩
  | .hbm, ⟨43, _⟩ => ⟨S4x1x32x32x32, .f32⟩
  | .hbm, ⟨44, _⟩ => ⟨S4x1x32x32x32, .f32⟩
  | .hbm, ⟨45, _⟩ => ⟨S4x1x32x32x32, .f32⟩
  | .hbm, ⟨46, _⟩ => ⟨S4x1x32x32x32, .f32⟩
  | .hbm, ⟨47, _⟩ => ⟨S_, .i32⟩
  | .hbm, ⟨48, _⟩ => ⟨S_, .f32⟩
  | .hbm, ⟨49, _⟩ => ⟨S4x1x32x32x33, .f32⟩
  | .hbm, ⟨50, _⟩ => ⟨S4x1x32x32x32, .f32⟩
  | .hbm, ⟨51, _⟩ => ⟨S4x1x32x32x32, .f32⟩
  | .hbm, ⟨52, _⟩ => ⟨S4x1x32x32x32, .f32⟩
  | .hbm, ⟨53, _⟩ => ⟨S4x1x32x32x32, .f32⟩
  | .local _ .vmem, ⟨0, _⟩ => ⟨S1x3x32x128x128, .f32⟩
  | .local _ .vmem, ⟨1, _⟩ => ⟨S1x3x32x128x128, .f32⟩
  | .local _ .vmem, ⟨2, _⟩ => ⟨S1x3x32x128x128, .f32⟩
  | .local _ .vmem, ⟨3, _⟩ => ⟨S1x3x32x128x128, .f32⟩
  | .local _ .vmem, ⟨4, _⟩ => ⟨S1x8x32x128, .f32⟩
  | .local _ .vmem, ⟨5, _⟩ => ⟨S1x8x32x128, .f32⟩
  | _, _ => ⟨S4x3x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_call3_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_call4_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_call5_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x3x32x128x128_S1x1x32x128x128_0_0_0_0_0 : ∀ a, (![0, 0, 0, 0, 0] : Fin 5 → Nat) a + S1x1x32x128x128.size a ≤ S1x3x32x128x128.size a
  h_S1x1x32x128x128 : 0 < S1x1x32x128x128.numel
  shapeCasts_S1x1x32x128x128_S32x128x128 : S1x1x32x128x128.ShapeCasts S32x128x128
  shapeCasts_S32x128x128_S8x4x128x128 : S32x128x128.ShapeCasts S8x4x128x128
  reduces_S8x4x128x128_S8x128x128 : S8x4x128x128.Reduces [1] S8x128x128
  shapeCasts_S8x128x128_S8x32x4x128 : S8x128x128.ShapeCasts S8x32x4x128
  reduces_S8x32x4x128_S8x32x128 : S8x32x4x128.Reduces [2] S8x32x128
  inb_S1x3x32x128x128_S1x1x32x128x128_0_1_0_0_0 : ∀ a, (![0, 1, 0, 0, 0] : Fin 5 → Nat) a + S1x1x32x128x128.size a ≤ S1x3x32x128x128.size a
  inb_S1x3x32x128x128_S1x1x32x128x128_0_2_0_0_0 : ∀ a, (![0, 2, 0, 0, 0] : Fin 5 → Nat) a + S1x1x32x128x128.size a ≤ S1x3x32x128x128.size a
  inb_S1x8x32x128_S1x8x32x128_0_0_0_0 : ∀ a, (![0, 0, 0, 0] : Fin 4 → Nat) a + S1x8x32x128.size a ≤ S1x8x32x128.size a
  h_S1x8x32x128 : 0 < S1x8x32x128.numel
  shapeCasts_S1x8x32x128_S8x32x128 : S1x8x32x128.ShapeCasts S8x32x128
  shapeCasts_S8x32x128_S1x8x32x128 : S8x32x128.ShapeCasts S1x8x32x128
  shapeCasts_S4x32x32x128_S4x32x32x32x4 : S4x32x32x128.ShapeCasts S4x32x32x32x4
  reducesTo_S4x32x32x32x4_S4x32x32x32_d4 : S4x32x32x32x4.ReducesTo [4] S4x32x32x32
  h_S_ : 0 < S_.numel
  bcast_S_S4x32x32x32 : S_.BroadcastsInDim S4x32x32x32 (![] : Fin 0 → Fin S4x32x32x32.rank)
  bcast_S4x32x32x32_S4x1x32x32x32_0_2_3_4 : S4x32x32x32.BroadcastsInDim S4x1x32x32x32 (![0, 2, 3, 4] : Fin 4 → Fin S4x1x32x32x32.rank)
  pads_S4x1x32x32x32_S4x1x33x32x32_000_000_100_000_000 : S4x1x32x32x32.Pads (![0, 0, 1, 0, 0] : Fin 5 → Nat) ![0, 0, 0, 0, 0] ![0, 0, 0, 0, 0] S4x1x33x32x32
  slices_S4x1x33x32x32_S4x1x32x32x32_0_0_0_0_0 : S4x1x33x32x32.Slices ![0, 0, 0, 0, 0] S4x1x32x32x32
  bcast_S_S4x1x32x32x32 : S_.BroadcastsInDim S4x1x32x32x32 (![] : Fin 0 → Fin S4x1x32x32x32.rank)
  pads_S4x1x32x32x32_S4x1x33x32x32_000_000_010_000_000 : S4x1x32x32x32.Pads (![0, 0, 0, 0, 0] : Fin 5 → Nat) ![0, 0, 1, 0, 0] ![0, 0, 0, 0, 0] S4x1x33x32x32
  slices_S4x1x33x32x32_S4x1x32x32x32_0_0_1_0_0 : S4x1x33x32x32.Slices ![0, 0, 1, 0, 0] S4x1x32x32x32
  pads_S4x1x32x32x32_S4x1x32x33x32_000_000_000_100_000 : S4x1x32x32x32.Pads (![0, 0, 0, 1, 0] : Fin 5 → Nat) ![0, 0, 0, 0, 0] ![0, 0, 0, 0, 0] S4x1x32x33x32
  slices_S4x1x32x33x32_S4x1x32x32x32_0_0_0_0_0 : S4x1x32x33x32.Slices ![0, 0, 0, 0, 0] S4x1x32x32x32
  pads_S4x1x32x32x32_S4x1x32x33x32_000_000_000_010_000 : S4x1x32x32x32.Pads (![0, 0, 0, 0, 0] : Fin 5 → Nat) ![0, 0, 0, 1, 0] ![0, 0, 0, 0, 0] S4x1x32x33x32
  slices_S4x1x32x33x32_S4x1x32x32x32_0_0_0_1_0 : S4x1x32x33x32.Slices ![0, 0, 0, 1, 0] S4x1x32x32x32
  pads_S4x1x32x32x32_S4x1x32x32x33_000_000_000_000_100 : S4x1x32x32x32.Pads (![0, 0, 0, 0, 1] : Fin 5 → Nat) ![0, 0, 0, 0, 0] ![0, 0, 0, 0, 0] S4x1x32x32x33
  slices_S4x1x32x32x33_S4x1x32x32x32_0_0_0_0_0 : S4x1x32x32x33.Slices ![0, 0, 0, 0, 0] S4x1x32x32x32
  pads_S4x1x32x32x32_S4x1x32x32x33_000_000_000_000_010 : S4x1x32x32x32.Pads (![0, 0, 0, 0, 0] : Fin 5 → Nat) ![0, 0, 0, 0, 1] ![0, 0, 0, 0, 0] S4x1x32x32x33
  slices_S4x1x32x32x33_S4x1x32x32x32_0_0_0_0_1 : S4x1x32x32x33.Slices ![0, 0, 0, 0, 1] S4x1x32x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32x128x128.size a ≤ S4x3x128x128x128.size a
  hwx0_0 : ∀ i : grid0.Coords, EltTy.bits .f32 = 32 ∨ (Rect.block (s := S4x3x128x128x128) S1x3x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x32x128x128.size a ≤ S4x3x128x128x128.size a
  hwx0_1 : ∀ i : grid0.Coords, EltTy.bits .f32 = 32 ∨ (Rect.block (s := S4x3x128x128x128) S1x3x32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x32x128.size a ≤ S4x32x32x128.size a
  hwx0_2 : ∀ i : grid0.Coords, EltTy.bits .f32 = 32 ∨ (Rect.block (s := S4x32x32x128) S1x8x32x128.size (cc0_transform_2 i) (hinb0_2 i)).WholeWords (EltTy.packing .f32)

variable [Facts₀]

abbrev win0_0 : Pipeline.Window sig grid0 :=
  Pipeline.Window.ofSpec (Memref.whole main_arg0) S1x3x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x128x128x128 : Shape := ⟨5, ![4, 3, 128, 128, 128]⟩
abbrev S_ : Shape := ⟨0, ![]⟩
abbrev S4x128x128x128 : Shape := ⟨4, ![4, 128, 128, 128]⟩
abbrev S4x1x128x128x128 : Shape := ⟨5, ![4, 1, 128, 128, 128]⟩
abbrev S4x1x32x4x32x4x32x4 : Shape := ⟨8, ![4, 1, 32, 4, 32, 4, 32, 4]⟩
abbrev S4x1x32x32x32 : Shape := ⟨5, ![4, 1, 32, 32, 32]⟩
abbrev S4x1x33x32x32 : Shape := ⟨5, ![4, 1, 33, 32, 32]⟩
abbrev S4x1x32x33x32 : Shape := ⟨5, ![4, 1, 32, 33, 32]⟩
abbrev S4x1x32x32x33 : Shape := ⟨5, ![4, 1, 32, 32, 33]⟩

abbrev nBuf : Space → Nat
  | .hbm => 71
  | .vmem => 0
  | .smem => 0
  | _ => 0

abbrev bufTy : (tb : Table) → Fin (tcTables nBuf tb) → BufTy
  | .hbm, ⟨0, _⟩ => ⟨S4x3x128x128x128, .f32⟩
  | .hbm, ⟨1, _⟩ => ⟨S4x3x128x128x128, .f32⟩
  | .hbm, ⟨2, _⟩ => ⟨S_, .f32⟩
  | .hbm, ⟨3, _⟩ => ⟨S4x128x128x128, .f32⟩
  | .hbm, ⟨4, _⟩ => ⟨S4x1x128x128x128, .f32⟩
  | .hbm, ⟨5, _⟩ => ⟨S_, .f32⟩
  | .hbm, ⟨6, _⟩ => ⟨S4x1x128x128x128, .f32⟩
  | .hbm, ⟨7, _⟩ => ⟨S4x1x128x128x128, .f32⟩
  | .hbm, ⟨8, _⟩ => ⟨S_, .f32⟩
  | .hbm, ⟨9, _⟩ => ⟨S4x128x128x128, .f32⟩
  | .hbm, ⟨10, _⟩ => ⟨S4x1x128x128x128, .f32⟩
  | .hbm, ⟨11, _⟩ => ⟨S_, .f32⟩
  | .hbm, ⟨12, _⟩ => ⟨S4x1x128x128x128, .f32⟩
  | .hbm, ⟨13, _⟩ => ⟨S4x1x128x128x128, .f32⟩
  | .hbm, ⟨14, _⟩ => ⟨S4x1x32x4x32x4x32x4, .f32⟩
  | .hbm, ⟨15, _⟩ => ⟨S_, .f32⟩
  | .hbm, ⟨16, _⟩ => ⟨S4x1x32x32x32, .f32⟩
  | .hbm, ⟨17, _⟩ => ⟨S_, .f32⟩
  | .hbm, ⟨18, _⟩ => ⟨S4x1x32x32x32, .f32⟩
  | .hbm, ⟨19, _⟩ => ⟨S4x1x32x32x32, .f32⟩
  | .hbm, ⟨20, _⟩ => ⟨S4x1x32x4x32x4x32x4, .f32⟩
  | .hbm, ⟨21, _⟩ => ⟨S_, .f32⟩
  | .hbm, ⟨22, _⟩ => ⟨S4x1x32x32x32, .f32⟩
  | .hbm, ⟨23, _⟩ => ⟨S_, .f32⟩
  | .hbm, ⟨24, _⟩ => ⟨S4x1x32x32x32, .f32⟩
  | .hbm, ⟨25, _⟩ => ⟨S4x1x32x32x32, .f32⟩
  | .hbm, ⟨26, _⟩ => ⟨S4x1x32x32x32, .f32⟩
  | .hbm, ⟨27, _⟩ => ⟨S_, .i32⟩
  | .hbm, ⟨28, _⟩ => ⟨S_, .f32⟩
  | .hbm, ⟨29, _⟩ => ⟨S4x1x33x32x32, .f32⟩
  | .hbm, ⟨30, _⟩ => ⟨S4x1x32x32x32, .f32⟩
  | .hbm, ⟨31, _⟩ => ⟨S4x1x32x32x32, .f32⟩
  | .hbm, ⟨32, _⟩ => ⟨S4x1x32x32x32, .f32⟩
  | .hbm, ⟨33, _⟩ => ⟨S_, .f32⟩
  | .hbm, ⟨34, _⟩ => ⟨S4x1x32x32x32, .f32⟩
  | .hbm, ⟨35, _⟩ => ⟨S4x1x32x32x32, .f32⟩
  | .hbm, ⟨36, _⟩ => ⟨S_, .i32⟩
  | .hbm, ⟨37, _⟩ => ⟨S_, .f32⟩
  | .hbm, ⟨38, _⟩ => ⟨S4x1x33x32x32, .f32⟩
  | .hbm, ⟨39, _⟩ => ⟨S4x1x32x32x32, .f32⟩
  | .hbm, ⟨40, _⟩ => ⟨S4x1x32x32x32, .f32⟩
  | .hbm, ⟨41, _⟩ => ⟨S4x1x32x32x32, .f32⟩
  | .hbm, ⟨42, _⟩ => ⟨S4x1x32x32x32, .f32⟩
  | .hbm, ⟨43, _⟩ => ⟨S_, .i32⟩
  | .hbm, ⟨44, _⟩ => ⟨S_, .f32⟩
  | .hbm, ⟨45, _⟩ => ⟨S4x1x32x33x32, .f32⟩
  | .hbm, ⟨46, _⟩ => ⟨S4x1x32x32x32, .f32⟩
  | .hbm, ⟨47, _⟩ => ⟨S4x1x32x32x32, .f32⟩
  | .hbm, ⟨48, _⟩ => ⟨S4x1x32x32x32, .f32⟩
  | .hbm, ⟨49, _⟩ => ⟨S4x1x32x32x32, .f32⟩
  | .hbm, ⟨50, _⟩ => ⟨S_, .i32⟩
  | .hbm, ⟨51, _⟩ => ⟨S_, .f32⟩
  | .hbm, ⟨52, _⟩ => ⟨S4x1x32x33x32, .f32⟩
  | .hbm, ⟨53, _⟩ => ⟨S4x1x32x32x32, .f32⟩
  | .hbm, ⟨54, _⟩ => ⟨S4x1x32x32x32, .f32⟩
  | .hbm, ⟨55, _⟩ => ⟨S4x1x32x32x32, .f32⟩
  | .hbm, ⟨56, _⟩ => ⟨S4x1x32x32x32, .f32⟩
  | .hbm, ⟨57, _⟩ => ⟨S_, .i32⟩
  | .hbm, ⟨58, _⟩ => ⟨S_, .f32⟩
  | .hbm, ⟨59, _⟩ => ⟨S4x1x32x32x33, .f32⟩
  | .hbm, ⟨60, _⟩ => ⟨S4x1x32x32x32, .f32⟩
  | .hbm, ⟨61, _⟩ => ⟨S4x1x32x32x32, .f32⟩
  | .hbm, ⟨62, _⟩ => ⟨S4x1x32x32x32, .f32⟩
  | .hbm, ⟨63, _⟩ => ⟨S4x1x32x32x32, .f32⟩
  | .hbm, ⟨64, _⟩ => ⟨S_, .i32⟩
  | .hbm, ⟨65, _⟩ => ⟨S_, .f32⟩
  | .hbm, ⟨66, _⟩ => ⟨S4x1x32x32x33, .f32⟩
  | .hbm, ⟨67, _⟩ => ⟨S4x1x32x32x32, .f32⟩
  | .hbm, ⟨68, _⟩ => ⟨S4x1x32x32x32, .f32⟩
  | .hbm, ⟨69, _⟩ => ⟨S4x1x32x32x32, .f32⟩
  | .hbm, ⟨70, _⟩ => ⟨S4x1x32x32x32, .f32⟩
  | _, _ => ⟨S4x3x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_call2_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_10 : Ref sig .tc := ⟨.hbm, 50, rfl⟩
abbrev main_call3_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_call4_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_12 : Ref sig .tc := ⟨.hbm, 64, rfl⟩
abbrev main_call5_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  reducesTo_S4x3x128x128x128_S4x128x128x128_d1 : S4x3x128x128x128.ReducesTo [1] S4x128x128x128
  h_S_ : 0 < S_.numel
  bcast_S4x128x128x128_S4x1x128x128x128_0_2_3_4 : S4x128x128x128.BroadcastsInDim S4x1x128x128x128 (![0, 2, 3, 4] : Fin 4 → Fin S4x1x128x128x128.rank)
  bcast_S_S4x1x128x128x128 : S_.BroadcastsInDim S4x1x128x128x128 (![] : Fin 0 → Fin S4x1x128x128x128.rank)
  shapeCasts_S4x1x128x128x128_S4x1x32x4x32x4x32x4 : S4x1x128x128x128.ShapeCasts S4x1x32x4x32x4x32x4
  reducesTo_S4x1x32x4x32x4x32x4_S4x1x32x32x32_d3_5_7 : S4x1x32x4x32x4x32x4.ReducesTo [3, 5, 7] S4x1x32x32x32
  bcast_S_S4x1x32x32x32 : S_.BroadcastsInDim S4x1x32x32x32 (![] : Fin 0 → Fin S4x1x32x32x32.rank)
  pads_S4x1x32x32x32_S4x1x33x32x32_000_000_100_000_000 : S4x1x32x32x32.Pads (![0, 0, 1, 0, 0] : Fin 5 → Nat) ![0, 0, 0, 0, 0] ![0, 0, 0, 0, 0] S4x1x33x32x32
  slices_S4x1x33x32x32_S4x1x32x32x32_0_0_0_0_0 : S4x1x33x32x32.Slices ![0, 0, 0, 0, 0] S4x1x32x32x32
  pads_S4x1x32x32x32_S4x1x33x32x32_000_000_010_000_000 : S4x1x32x32x32.Pads (![0, 0, 0, 0, 0] : Fin 5 → Nat) ![0, 0, 1, 0, 0] ![0, 0, 0, 0, 0] S4x1x33x32x32
  slices_S4x1x33x32x32_S4x1x32x32x32_0_0_1_0_0 : S4x1x33x32x32.Slices ![0, 0, 1, 0, 0] S4x1x32x32x32
  pads_S4x1x32x32x32_S4x1x32x33x32_000_000_000_100_000 : S4x1x32x32x32.Pads (![0, 0, 0, 1, 0] : Fin 5 → Nat) ![0, 0, 0, 0, 0] ![0, 0, 0, 0, 0] S4x1x32x33x32
  slices_S4x1x32x33x32_S4x1x32x32x32_0_0_0_0_0 : S4x1x32x33x32.Slices ![0, 0, 0, 0, 0] S4x1x32x32x32
  pads_S4x1x32x32x32_S4x1x32x33x32_000_000_000_010_000 : S4x1x32x32x32.Pads (![0, 0, 0, 0, 0] : Fin 5 → Nat) ![0, 0, 0, 1, 0] ![0, 0, 0, 0, 0] S4x1x32x33x32
  slices_S4x1x32x33x32_S4x1x32x32x32_0_0_0_1_0 : S4x1x32x33x32.Slices ![0, 0, 0, 1, 0] S4x1x32x32x32
  pads_S4x1x32x32x32_S4x1x32x32x33_000_000_000_000_100 : S4x1x32x32x32.Pads (![0, 0, 0, 0, 1] : Fin 5 → Nat) ![0, 0, 0, 0, 0] ![0, 0, 0, 0, 0] S4x1x32x32x33
  slices_S4x1x32x32x33_S4x1x32x32x32_0_0_0_0_0 : S4x1x32x32x33.Slices ![0, 0, 0, 0, 0] S4x1x32x32x32
  pads_S4x1x32x32x32_S4x1x32x32x33_000_000_000_000_010 : S4x1x32x32x32.Pads (![0, 0, 0, 0, 0] : Fin 5 → Nat) ![0, 0, 0, 0, 1] ![0, 0, 0, 0, 0] S4x1x32x32x33
  slices_S4x1x32x32x33_S4x1x32x32x32_0_0_0_0_1 : S4x1x32x32x33.Slices ![0, 0, 0, 0, 1] S4x1x32x32x32

variable [Facts₀]

class Facts : Prop extends Facts₀ where

variable [Facts]
-- ==== Proof.LibPoolRows.lean ====
/-
  A 4 × 4 sum-pool of the two leading axes of a [32, 128, 128] array, as a vector unit spells it, read at an entry.

  The array is viewed [8, 4, 128, 128] and summed over the axis of extent 4 (rows 4h … 4h+3 of the leading axis), the
  [8, 128, 128] result is viewed [8, 32, 4, 128] and summed over ITS axis of extent 4 (rows 4w … 4w+3 of the middle
  axis). A view keeps the row-major position, and at the ideal values a sum over one axis is a finite sum, so entry
  (h, w, l) of the result is the double sum, over pw and ph below 4, of the array at (4h + ph, 4w + pw, l).
-/
import Idealize.ShloMosaic.PureOps.Ideal.Laws
import Idealize.ShloMosaic.Lib.ValueIdx
import Idealize.ShloMosaic.Lib.Pipeline.Value

noncomputable section

open scoped BigOperators

namespace ProofLib.PoolRows

open Idealize.ShloMosaic Idealize.ShloMosaic.ValueIdx

abbrev T3 : Shape := ⟨3, ![32, 128, 128]⟩
abbrev T4 : Shape := ⟨4, ![8, 4, 128, 128]⟩
abbrev U3 : Shape := ⟨3, ![8, 128, 128]⟩
abbrev U4 : Shape := ⟨4, ![8, 32, 4, 128]⟩
abbrev R3 : Shape := ⟨3, ![8, 32, 128]⟩

/-- Row `4h + ph` of the leading axis. -/
abbrev row4 (h : Fin 8) (p : Fin 4) : Fin 32 := ⟨4 * h.val + p.val, by have := h.isLt; have := p.isLt; omega⟩
/-- Row `4w + pw` of the middle axis. -/
abbrev col4 (w : Fin 32) (p : Fin 4) : Fin 128 := ⟨4 * w.val + p.val, by have := w.isLt; have := p.isLt; omega⟩

/-- The second pooling step at an entry: the [8, 128, 128] array viewed [8, 32, 4, 128] and summed over the axis of
    extent 4 is the sum over `pw` of the array at (h, 4w + pw, l). -/
theorem pool_mid (e : FVec Ideal U3 .f32) (c2 : U3.ShapeCasts U4) (r2 : U4.Reduces [2] R3)
    (hφ : FKind.Formats .f32) (ha : (0x00000000#32 : BitVec 32) = FKind.add.neutral .f32 hφ)
    (h : Fin 8) (w : Fin 32) (l : Fin 128) :
    multiReduction .add [2] R3 (shapeCast U4 e c2) 0x00000000#32 r2 hφ ha (ix3 h w l)
      = ∑ pw : Fin 4, e (ix3 h (col4 w pw) l) := by
  refine (Ideal.multiReduction_add_single _ _ r2 hφ ha (ix3 h w l)).trans ?_
  show ∑ pw : Fin 4, _ = _
  refine Finset.sum_congr rfl fun pw _ => ?_
  refine shapeCast_apply e c2 _ (ix3 h (col4 w pw) l) ?_
  rw [Shape.rowMajor_val_three, Shape.rowMajor_val_four]
  show (h.val * 128 + (4 * w.val + pw.val)) * 128 + l.val = ((h.val * 32 + w.val) * 4 + pw.val) * 128 + l.val
  omega

/-- The first pooling step at an entry: the [32, 128, 128] array viewed [8, 4, 128, 128] and summed over the axis of
    extent 4 is the sum over `ph` of the array at (4h + ph, r, l). -/
theorem pool_lead (d : FVec Ideal T3 .f32) (c1 : T3.ShapeCasts T4) (r1 : T4.Reduces [1] U3)
    (hφ : FKind.Formats .f32) (ha : (0x00000000#32 : BitVec 32) = FKind.add.neutral .f32 hφ)
    (h : Fin 8) (r : Fin 128) (l : Fin 128) :
    multiReduction .add [1] U3 (shapeCast T4 d c1) 0x00000000#32 r1 hφ ha (ix3 h r l)
      = ∑ ph : Fin 4, d (ix3 (row4 h ph) r l) := by
  refine (Ideal.multiReduction_add_single _ _ r1 hφ ha (ix3 h r l)).trans ?_
  show ∑ ph : Fin 4, _ = _
  refine Finset.sum_congr rfl fun ph _ => ?_
  refine shapeCast_apply d c1 _ (ix3 (row4 h ph) r l) ?_
  rw [Shape.rowMajor_val_three, Shape.rowMajor_val_four]
  show ((4 * h.val + ph.val) * 128 + r.val) * 128 + l.val = ((h.val * 4 + ph.val) * 128 + r.val) * 128 + l.val
  omega

/-- Both steps: entry (h, w, l) of the pooled array is the double sum of the 4 × 4 window's entries. -/
theorem pooled_entry (d : FVec Ideal T3 .f32) (c1 : T3.ShapeCasts T4) (r1 : T4.Reduces [1] U3) (c2 : U3.ShapeCasts U4)
    (r2 : U4.Reduces [2] R3) (hφ hφ' : FKind.Formats .f32)
    (ha : (0x00000000#32 : BitVec 32) = FKind.add.neutral .f32 hφ) (ha' : (0x00000000#32 : BitVec 32) = FKind.add.neutral .f32 hφ')
    (h : Fin 8) (w : Fin 32) (l : Fin 128) :
    multiReduction .add [2] R3 (shapeCast U4 (multiReduction .add [1] U3 (shapeCast T4 d c1) 0x00000000#32 r1 hφ ha) c2)
        0x00000000#32 r2 hφ' ha' (ix3 h w l)
      = ∑ pw : Fin 4, ∑ ph : Fin 4, d (ix3 (row4 h ph) (col4 w pw) l) := by
  refine (pool_mid _ c2 r2 hφ' ha' h w l).trans ?_
  exact Finset.sum_congr rfl fun pw _ => pool_lead d c1 r1 hφ ha h (col4 w pw) l

end ProofLib.PoolRows

end
-- ==== Proof.KernelBlock.lean ====
/-
  What the kernel body leaves in its output block, read at an entry.

  A grid point's input blocks are [1, 3, 32, 128, 128] (three channels of a 32 × 128 × 128 slab of each input), its
  output block [1, 8, 32, 128]. For each channel the body takes the difference of the two slabs, sum-pools it 4 × 4 over
  the two leading axes, and adds the three pooled channels, (c0 + c1) + c2. So entry (0, h, w, l) of the output block is
  that sum of three double sums over the 4 × 4 window of differences.
-/
import proofs.«136829_j88115549045530_2_alg».proof.Proof.Gen.KernelIdeal.Frame
import proofs.«136829_j88115549045530_2_alg».proof.Proof.LibPoolRows
import Idealize.ShloMosaic.Lib.ValueIdx
import Idealize.ShloMosaic.Lib.Pipeline.Value

noncomputable section

open scoped BigOperators

namespace Cert.KernelBlock

open Idealize.ShloMosaic Idealize.ShloMosaic.ValueIdx ProofLib.PoolRows
open Cert.KernelIdeal Cert.KernelIdeal.Gen

theorem zeros4 : (![0, 0, 0, 0] : Fin 4 → Nat) = fun _ => 0 := funext fun a => by fin_cases a <;> rfl

/-- The 4 × 4 sum-pool of one channel's slab of differences, as the body spells it. -/
def pool (d : FVec Ideal S32x128x128 .f32) : FVec Ideal S8x32x128 .f32 :=
  multiReduction .add [2] S8x32x128
    (shapeCast S8x32x4x128
      (multiReduction .add [1] S8x128x128 (shapeCast S8x4x128x128 d shapeCasts_S32x128x128_S8x4x128x128) 0x00000000#32
        reduces_S8x4x128x128_S8x128x128 (.inl rfl) rfl)
      shapeCasts_S8x128x128_S8x32x4x128)
    0x00000000#32 reduces_S8x32x4x128_S8x32x128 (.inl rfl) rfl

/-- One channel's slab of differences: the two loaded [1, 1, 32, 128, 128] pieces viewed [32, 128, 128] and subtracted. -/
def diff (u v : Vec Ideal S1x1x32x128x128 .f32) : FVec Ideal S32x128x128 .f32 :=
  subf (shapeCast S32x128x128 u shapeCasts_S1x1x32x128x128_S32x128x128)
    (shapeCast S32x128x128 v shapeCasts_S1x1x32x128x128_S32x128x128)

/-- The body's three payloads are these operations of its six loads. -/
theorem pay3_eq (v19 v21 : Vec Ideal S1x1x32x128x128 .f32) : k0_pay3 (F := Ideal) v19 v21 = diff v19 v21 := rfl
theorem pay2_eq (v0 v2 v9 v11 : Vec Ideal S1x1x32x128x128 .f32) :
    k0_pay2 (F := Ideal) v0 v2 v9 v11 = addf (pool (diff v0 v2)) (pool (diff v9 v11)) := rfl
theorem pay1_eq (v18 : FVec Ideal S8x32x128 .f32) (v23 : FVec Ideal S32x128x128 .f32) :
    k0_pay1 (F := Ideal) v18 v23 = shapeCast S1x8x32x128 (addf v18 (pool v23)) shapeCasts_S8x32x128_S1x8x32x128 := rfl

/-- The pooled slab at an entry. -/
theorem pool_apply (d : FVec Ideal S32x128x128 .f32) (h : Fin 8) (w : Fin 32) (l : Fin 128) :
    pool d (ix3 h w l) = ∑ pw : Fin 4, ∑ ph : Fin 4, d (ix3 (row4 h ph) (col4 w pw) l) :=
  pooled_entry d _ _ _ _ (.inl rfl) (.inl rfl) rfl rfl h w l

/-- A loaded piece viewed [32, 128, 128], at an entry. -/
theorem view3_apply (u : Vec Ideal S1x1x32x128x128 .f32) (a : Fin 32) (b l : Fin 128) :
    shapeCast S32x128x128 u shapeCasts_S1x1x32x128x128_S32x128x128 (ix3 a b l) = u (ix5 0 0 a b l) := by
  refine shapeCast_apply u _ _ (ix5 0 0 a b l) ?_
  rw [Shape.rowMajor_val_three, Shape.rowMajor_val_five]
  show (((0 * 1 + 0) * 32 + a.val) * 128 + b.val) * 128 + l.val = (a.val * 128 + b.val) * 128 + l.val
  omega

/-- One channel's differences at an entry. -/
theorem diff_apply (u v : Vec Ideal S1x1x32x128x128 .f32) (a : Fin 32) (b l : Fin 128) :
    diff u v (ix3 a b l) = u (ix5 0 0 a b l) - v (ix5 0 0 a b l) := by
  show shapeCast S32x128x128 u _ (ix3 a b l) - shapeCast S32x128x128 v _ (ix3 a b l) = _
  rw [view3_apply, view3_apply]

/-- Channel `c` of an input block, loaded, at an entry: the block at (0, c, a, b, l). -/
theorem ld_chan (x : Vec Ideal S1x3x32x128x128 .f32) (off : Fin 5 → Nat) (inb : ∀ a, off a + S1x1x32x128x128.size a ≤ S1x3x32x128x128.size a)
    (c : Fin 3) (h0 : off 0 = 0) (h1 : off 1 = c.val) (h2 : off 2 = 0) (h3 : off 3 = 0) (h4 : off 4 = 0)
    (a : Fin 32) (b l : Fin 128) :
    View.ld x (Rect.unit (s := S1x3x32x128x128) off S1x1x32x128x128.size inb) (ix5 0 0 a b l) = x (ix5 0 c a b l) := by
  show x ((Rect.unit (s := S1x3x32x128x128) off S1x1x32x128x128.size inb).emb (ix5 0 0 a b l)) = _
  refine congrArg x (funext fun d => Fin.ext ?_)
  match d with
  | ⟨0, _⟩ => show off 0 + 1 * 0 = 0; omega
  | ⟨1, _⟩ => show off 1 + 1 * 0 = c.val; omega
  | ⟨2, _⟩ => show off 2 + 1 * a.val = a.val; omega
  | ⟨3, _⟩ => show off 3 + 1 * b.val = b.val; omega
  | ⟨4, _⟩ => show off 4 + 1 * l.val = l.val; omega

theorem ld0 (x : Vec Ideal S1x3x32x128x128 .f32) (a : Fin 32) (b l : Fin 128) :
    View.ld x r0_0 (ix5 0 0 a b l) = x (ix5 0 0 a b l) := ld_chan x _ _ 0 rfl rfl rfl rfl rfl a b l
theorem ld1 (x : Vec Ideal S1x3x32x128x128 .f32) (a : Fin 32) (b l : Fin 128) :
    View.ld x r0_1 (ix5 0 0 a b l) = x (ix5 0 1 a b l) := ld_chan x _ _ 1 rfl rfl rfl rfl rfl a b l
theorem ld2 (x : Vec Ideal S1x3x32x128x128 .f32) (a : Fin 32) (b l : Fin 128) :
    View.ld x r0_2 (ix5 0 0 a b l) = x (ix5 0 2 a b l) := ld_chan x _ _ 2 rfl rfl rfl rfl rfl a b l

/-- The 4 × 4 window sum of one channel's differences, over an input block pair. -/
def chanSum (x0 x1 : Vec Ideal S1x3x32x128x128 .f32) (c : Fin 3) (h : Fin 8) (w : Fin 32) (l : Fin 128) : EReal :=
  ∑ pw : Fin 4, ∑ ph : Fin 4, (x0 (ix5 0 c (row4 h ph) (col4 w pw) l) - x1 (ix5 0 c (row4 h ph) (col4 w pw) l))

/-- One channel's pooled differences at an entry are its window sum (the channel's two loads read at the block). -/
theorem pool_diff_apply (x0 x1 : Vec Ideal S1x3x32x128x128 .f32) (c : Fin 3) (u v : Vec Ideal S1x1x32x128x128 .f32)
    (hu : ∀ a b l, u (ix5 0 0 a b l) = x0 (ix5 0 c a b l)) (hv : ∀ a b l, v (ix5 0 0 a b l) = x1 (ix5 0 c a b l))
    (h : Fin 8) (w : Fin 32) (l : Fin 128) : pool (diff u v) (ix3 h w l) = chanSum x0 x1 c h w l := by
  rw [pool_apply]
  unfold chanSum
  refine Finset.sum_congr rfl fun pw _ => Finset.sum_congr rfl fun ph _ => ?_
  rw [diff_apply, hu, hv]

/-- Entry (0, h, w, l) of the output block: the three channels' window sums, (c0 + c1) + c2. -/
theorem block_entry (x0 x1 : Vec Ideal S1x3x32x128x128 .f32) (h : Fin 8) (w : Fin 32) (l : Fin 128) :
    out0_2 (F := Ideal) x0 x1 (ix4 0 h w l) = (chanSum x0 x1 0 h w l + chanSum x0 x1 1 h w l) + chanSum x0 x1 2 h w l := by
  unfold out0_2
  rw [View.canon_unit_zero zeros4, pay1_eq, pay2_eq, pay3_eq]
  refine (shapeCast_apply _ _ _ (ix3 h w l) ?_).trans ?_
  · rw [Shape.rowMajor_val_three, Shape.rowMajor_val_four]
    show (h.val * 32 + w.val) * 128 + l.val = ((0 * 8 + h.val) * 32 + w.val) * 128 + l.val
    omega
  show (pool _ (ix3 h w l) + pool _ (ix3 h w l)) + pool _ (ix3 h w l) = _
  rw [pool_diff_apply x0 x1 0 _ _ (ld0 x0) (ld0 x1), pool_diff_apply x0 x1 1 _ _ (ld1 x0) (ld1 x1),
    pool_diff_apply x0 x1 2 _ _ (ld2 x0) (ld2 x1)]

end Cert.KernelBlock

end
-- ==== Proof.KernelArray.lean ====
/-
  The array the kernel's region leaves: the channel-summed, 4 × 4-pooled difference of the two inputs, whole.

  The grid is 4 × 4: point (b, g) reads the slab [b, 0:3, 32g : 32g + 32, :, :] of each input and writes the block
  [b, 8g : 8g + 8, :, :] of the [4, 32, 32, 128] result. The blocks tile the result, and block-local row h of point (b, g)
  is row 8g + h of the array, whose window rows 4(8g + h) + ph are rows 4h + ph of the point's slab. So the result array,
  at (b, r, w, l), is the sum over the three channels of the 4 × 4 window sums of the differences at rows 4r + ph and
  columns 4w + pw — one function of the two input arrays.
-/
import proofs.«136829_j88115549045530_2_alg».proof.Proof.KernelBlock

set_option maxRecDepth 16384

noncomputable section

open scoped BigOperators

namespace Cert.KernelArray

open Idealize.ShloMosaic Idealize.ShloMosaic.TcCoe Idealize.ShloMosaic.ValueIdx ProofLib.PoolRows
open Idealize.SL.Sem
open Cert.KernelIdeal Cert.KernelIdeal.Gen Cert.KernelBlock

/-- Row `4r + ph` of an input's first image axis, for a row `r` of the pooled array. -/
abbrev frow (r : Fin 32) (p : Fin 4) : Fin 128 := ⟨4 * r.val + p.val, by have := r.isLt; have := p.isLt; omega⟩

/-- One channel's 4 × 4 window sum of differences, over the whole input arrays. -/
def chanSumA (a0 a1 : FVec Ideal S4x3x128x128x128 .f32) (c : Fin 3) (b : Fin 4) (r w : Fin 32) (l : Fin 128) : EReal :=
  ∑ pw : Fin 4, ∑ ph : Fin 4, (a0 (ix5 b c (frow r ph) (col4 w pw) l) - a1 (ix5 b c (frow r ph) (col4 w pw) l))

/-- The region's result as one function of the two input arrays. -/
def pooled (a0 a1 : FVec Ideal S4x3x128x128x128 .f32) : FVec Ideal S4x32x32x128 .f32 := fun i =>
  (chanSumA a0 a1 0 (i 0) (i 1) (i 2) (i 3) + chanSumA a0 a1 1 (i 0) (i 1) (i 2) (i 3)) + chanSumA a0 a1 2 (i 0) (i 1) (i 2) (i 3)

variable (m : (ℓ : Loc nD τ sig) → Buf (Elt Ideal) ℓ)

/-- The printed index maps, decided over the grid: the inputs' slabs move with the output's block. -/
theorem idx_facts : ∀ t : Fin cfg0.N,
    win0_0.index t (0 : Fin 5) = win0_2.index t (0 : Fin 4) ∧ win0_0.index t (1 : Fin 5) = 0
    ∧ win0_0.index t (2 : Fin 5) = win0_2.index t (1 : Fin 4) ∧ win0_0.index t (3 : Fin 5) = 0 ∧ win0_0.index t (4 : Fin 5) = 0
    ∧ win0_1.index t (0 : Fin 5) = win0_2.index t (0 : Fin 4) ∧ win0_1.index t (1 : Fin 5) = 0
    ∧ win0_1.index t (2 : Fin 5) = win0_2.index t (1 : Fin 4) ∧ win0_1.index t (3 : Fin 5) = 0 ∧ win0_1.index t (4 : Fin 5) = 0
    ∧ win0_2.index t (0 : Fin 4) ≤ 3 ∧ win0_2.index t (1 : Fin 4) ≤ 3
    ∧ win0_2.index t (2 : Fin 4) = 0 ∧ win0_2.index t (3 : Fin 4) = 0 :=
  (by decide +kernel : ∀ t : Fin grid0.N, _)

/-- Every block of the result is some point's. -/
theorem idx_onto : ∀ (q0 : Fin 4) (q1 : Fin 4), ∃ t : Fin cfg0.N, win0_2.index t = ![q0.val, q1.val, 0, 0] :=
  (by decide +kernel : ∀ (q0 : Fin 4) (q1 : Fin 4), ∃ t : Fin grid0.N, win0_2.index t = ![q0.val, q1.val, 0, 0])

/-- One channel's window sum over a point's slabs is the window sum over the arrays, at the block's place. -/
theorem chanSum_blk (c : Dev nD) (t : Fin cfg0.N) (k : Fin 3) (y : S1x8x32x128.Idx) :
    chanSum (iblk m c 0 t) (iblk m c 1 t) k (y 1) (y 2) (y 3)
      = chanSumA (V m c main_arg0) (V m c main_arg1) k ((((cfg0.win 2).blk t).view.emb y) 0) ((((cfg0.win 2).blk t).view.emb y) 1)
          ((((cfg0.win 2).blk t).view.emb y) 2) ((((cfg0.win 2).blk t).view.emb y) 3) := by
  obtain ⟨e0, e1, e2, e3, e4, f0, f1, f2, f3, f4, g0, g1, g2, g3⟩ := idx_facts t
  unfold chanSum chanSumA
  refine Finset.sum_congr rfl fun pw _ => Finset.sum_congr rfl fun ph _ => ?_
  have hy0 : (y 0).val = 0 := by have : (y 0).val < 1 := (y 0).isLt; omega
  have hy1 : (y 1).val < 8 := (y 1).isLt
  have hy2 : (y 2).val < 32 := (y 2).isLt
  have hy3 : (y 3).val < 128 := (y 3).isLt
  have hph : ph.val < 4 := ph.isLt
  have hpw : pw.val < 4 := pw.isLt
  have h0 : ((cfg0.win 0).blk t).view.emb (ix5 0 k (row4 (y 1) ph) (col4 (y 2) pw) (y 3))
      = ix5 ((((cfg0.win 2).blk t).view.emb y) 0) k (frow ((((cfg0.win 2).blk t).view.emb y) 1) ph)
          (col4 ((((cfg0.win 2).blk t).view.emb y) 2) pw) ((((cfg0.win 2).blk t).view.emb y) 3) := by
    funext a; apply Fin.ext
    match a with
    | ⟨0, _⟩ => show win0_0.index t (0 : Fin 5) * 1 + 1 * 0 = win0_2.index t (0 : Fin 4) * 1 + 1 * (y 0).val; omega
    | ⟨1, _⟩ => show win0_0.index t (1 : Fin 5) * 3 + 1 * k.val = k.val; omega
    | ⟨2, _⟩ => show win0_0.index t (2 : Fin 5) * 32 + 1 * (4 * (y 1).val + ph.val) = 4 * (win0_2.index t (1 : Fin 4) * 8 + 1 * (y 1).val) + ph.val; omega
    | ⟨3, _⟩ => show win0_0.index t (3 : Fin 5) * 128 + 1 * (4 * (y 2).val + pw.val) = 4 * (win0_2.index t (2 : Fin 4) * 32 + 1 * (y 2).val) + pw.val; omega
    | ⟨4, _⟩ => show win0_0.index t (4 : Fin 5) * 128 + 1 * (y 3).val = win0_2.index t (3 : Fin 4) * 128 + 1 * (y 3).val; omega
  have h1 : ((cfg0.win 1).blk t).view.emb (ix5 0 k (row4 (y 1) ph) (col4 (y 2) pw) (y 3))
      = ix5 ((((cfg0.win 2).blk t).view.emb y) 0) k (frow ((((cfg0.win 2).blk t).view.emb y) 1) ph)
          (col4 ((((cfg0.win 2).blk t).view.emb y) 2) pw) ((((cfg0.win 2).blk t).view.emb y) 3) := by
    funext a; apply Fin.ext
    match a with
    | ⟨0, _⟩ => show win0_1.index t (0 : Fin 5) * 1 + 1 * 0 = win0_2.index t (0 : Fin 4) * 1 + 1 * (y 0).val; omega
    | ⟨1, _⟩ => show win0_1.index t (1 : Fin 5) * 3 + 1 * k.val = k.val; omega
    | ⟨2, _⟩ => show win0_1.index t (2 : Fin 5) * 32 + 1 * (4 * (y 1).val + ph.val) = 4 * (win0_2.index t (1 : Fin 4) * 8 + 1 * (y 1).val) + ph.val; omega
    | ⟨3, _⟩ => show win0_1.index t (3 : Fin 5) * 128 + 1 * (4 * (y 2).val + pw.val) = 4 * (win0_2.index t (2 : Fin 4) * 32 + 1 * (y 2).val) + pw.val; omega
    | ⟨4, _⟩ => show win0_1.index t (4 : Fin 5) * 128 + 1 * (y 3).val = win0_2.index t (3 : Fin 4) * 128 + 1 * (y 3).val; omega
  have e0 : iblk m c 0 t (ix5 0 k (row4 (y 1) ph) (col4 (y 2) pw) (y 3))
      = V m c main_arg0 (ix5 ((((cfg0.win 2).blk t).view.emb y) 0) k (frow ((((cfg0.win 2).blk t).view.emb y) 1) ph)
          (col4 ((((cfg0.win 2).blk t).view.emb y) 2) pw) ((((cfg0.win 2).blk t).view.emb y) 3)) := by
    show V m c main_arg0 (((cfg0.win 0).blk t).view.emb (ix5 0 k (row4 (y 1) ph) (col4 (y 2) pw) (y 3))) = _
    rw [h0]; rfl
  have e1 : iblk m c 1 t (ix5 0 k (row4 (y 1) ph) (col4 (y 2) pw) (y 3))
      = V m c main_arg1 (ix5 ((((cfg0.win 2).blk t).view.emb y) 0) k (frow ((((cfg0.win 2).blk t).view.emb y) 1) ph)
          (col4 ((((cfg0.win 2).blk t).view.emb y) 2) pw) ((((cfg0.win 2).blk t).view.emb y) 3)) := by
    show V m c main_arg1 (((cfg0.win 1).blk t).view.emb (ix5 0 k (row4 (y 1) ph) (col4 (y 2) pw) (y 3))) = _
    rw [h1]; rfl
  rw [e0, e1]

/-- What point `t` writes back is block `t` of `pooled` of the input arrays as the region finds them. -/
theorem flushed_eq (c : Dev nD) (t : Fin cfg0.N) :
    (dats m 0 c).flushed 2 t = ((cfg0.win 2).blk t).view.read (Elt Ideal) (pooled (V m c main_arg0) (V m c main_arg1)) := by
  show (cfg0.win 2).cut (grid0.coords t) ((dats m 0 c).after 2 t) = _
  rw [after0_2]
  funext y
  show out0_2 (iblk m c 0 t) (iblk m c 1 t) y = pooled (V m c main_arg0) (V m c main_arg1) (((cfg0.win 2).blk t).view.emb y)
  have hy : (y : S1x8x32x128.Idx) = ix4 0 (y 1) (y 2) (y 3) := by
    funext a
    apply Fin.ext
    match a with
    | ⟨0, _⟩ => show (y 0).val = 0; have h : (y 0).val < 1 := (y 0).isLt; omega
    | ⟨1, _⟩ => rfl
    | ⟨2, _⟩ => rfl
    | ⟨3, _⟩ => rfl
  refine (congrArg (out0_2 (iblk m c 0 t) (iblk m c 1 t)) hy).trans ?_
  refine (block_entry (iblk m c 0 t) (iblk m c 1 t) (y 1) (y 2) (y 3)).trans ?_
  rw [chanSum_blk m c t 0 y, chanSum_blk m c t 1 y, chanSum_blk m c t 2 y]
  rfl

/-- An index of the result is in point `t`'s block iff each coordinate is in the block's range on its axis. -/
theorem mem_blk (t : Fin cfg0.N) (i : S4x32x32x128.Idx) :
    i ∈ ((cfg0.win 2).blk t).view.set ↔ ∀ a : Fin 4, win0_2.index t a * S1x8x32x128.size a ≤ (i a).val
      ∧ (i a).val < win0_2.index t a * S1x8x32x128.size a + S1x8x32x128.size a := by
  show i ∈ ((View.whole main_v0).slice (win0_2.rect t)).set ↔ _
  rw [View.set_slice_whole, Rect.mem_set_unit]
  exact Iff.rfl

/-- The blocks tile the result: every index is in the block of the point (i₀, i₁ / 8). -/
theorem cover (i : S4x32x32x128.Idx) : ∃ t : Fin cfg0.N, (cfg0.win 2).flush t = true ∧ i ∈ ((cfg0.win 2).blk t).view.set := by
  have hi0 : (i 0).val < 4 := (i 0).isLt
  have hi1 : (i 1).val < 32 := (i 1).isLt
  have hi2 : (i 2).val < 32 := (i 2).isLt
  have hi3 : (i 3).val < 128 := (i 3).isLt
  obtain ⟨t, ht⟩ := idx_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 32 ≤ (i 2).val ∧ (i 2).val < win0_2.index t (2 : Fin 4) * 32 + 32; omega
  | ⟨3, _⟩ => show win0_2.index t (3 : Fin 4) * 128 ≤ (i 3).val ∧ (i 3).val < win0_2.index t (3 : Fin 4) * 128 + 128; omega

/-- The region's result array after the run: `pooled` of the two input arrays. -/
theorem final (c : Dev nD) :
    (dats m 0 c).arrAt 2 cfg0.N = pooled (m ((c : Thread nD τ).loc main_arg0)) (m ((c : Thread nD τ).loc main_arg1)) :=
  (dats m 0 c).arrAt_eq_of_cover 2 (pooled (V m c main_arg0) (V m c main_arg1)) (fun t _ => flushed_eq m c t) cover

end Cert.KernelArray

end
-- ==== Proof.KernelTail.lean ====
/-
  The host lines after the region, read back: the pooled array's last-axis pool and division, then the stencil.

  After the region the host views the [4, 32, 32, 128] array as [4, 32, 32, 32, 4], sums the last axis from the word of
  0.0, divides by the word of 192.0 and inserts a unit axis: the pooled difference `g` : [4, 1, 32, 32, 32] (`head`).
  Then, for each of the three image axes and both directions, it pads `g` by one zero on one side, slices the
  neighbour back out, subtracts it from `g` and squares; the six squares are added up from a zero array (`stencil`).
  The result buffer after the run is `stencil (head (the region's array))`.
-/
import proofs.«136829_j88115549045530_2_alg».proof.Proof.KernelArray
import Idealize.ShloMosaic.Lib.StableHlo.Run
import Idealize.ShloMosaic.PureOps.Ideal.Laws

set_option maxRecDepth 16384

noncomputable section

open scoped BigOperators

namespace Cert.KernelTail

open Idealize.ShloMosaic Idealize.ShloMosaic.TcCoe Idealize.ShloMosaic.StableHlo Idealize.ShloMosaic.ValueIdx
open Idealize.SL.Sem
open Cert.KernelIdeal Cert.KernelIdeal.Gen

/-- The pad value: the integer 0 converted. -/
def padZero : FVec Ideal S_ .f32 := sitofp (F := Ideal) .f32 (constantI S_ 32 0#32)

/-- The square of the difference with a neighbour array. -/
def sqDiff (g s : FVec Ideal S4x1x32x32x32 .f32) : FVec Ideal S4x1x32x32x32 .f32 := mulf (subf g s) (subf g s)

/-- The six neighbour arrays: `g` shifted by one along an image axis, zero at the border. -/
def nbrH0 (g : FVec Ideal S4x1x32x32x32 .f32) : FVec Ideal S4x1x32x32x32 .f32 :=
  extractStridedSlice S4x1x32x32x32 ![0, 0, 0, 0, 0]
    (pad S4x1x33x32x32 ![0, 0, 1, 0, 0] ![0, 0, 0, 0, 0] ![0, 0, 0, 0, 0] g padZero pads_S4x1x32x32x32_S4x1x33x32x32_000_000_100_000_000 h_S_)
    slices_S4x1x33x32x32_S4x1x32x32x32_0_0_0_0_0
def nbrH1 (g : FVec Ideal S4x1x32x32x32 .f32) : FVec Ideal S4x1x32x32x32 .f32 :=
  extractStridedSlice S4x1x32x32x32 ![0, 0, 1, 0, 0]
    (pad S4x1x33x32x32 ![0, 0, 0, 0, 0] ![0, 0, 1, 0, 0] ![0, 0, 0, 0, 0] g padZero pads_S4x1x32x32x32_S4x1x33x32x32_000_000_010_000_000 h_S_)
    slices_S4x1x33x32x32_S4x1x32x32x32_0_0_1_0_0
def nbrW0 (g : FVec Ideal S4x1x32x32x32 .f32) : FVec Ideal S4x1x32x32x32 .f32 :=
  extractStridedSlice S4x1x32x32x32 ![0, 0, 0, 0, 0]
    (pad S4x1x32x33x32 ![0, 0, 0, 1, 0] ![0, 0, 0, 0, 0] ![0, 0, 0, 0, 0] g padZero pads_S4x1x32x32x32_S4x1x32x33x32_000_000_000_100_000 h_S_)
    slices_S4x1x32x33x32_S4x1x32x32x32_0_0_0_0_0
def nbrW1 (g : FVec Ideal S4x1x32x32x32 .f32) : FVec Ideal S4x1x32x32x32 .f32 :=
  extractStridedSlice S4x1x32x32x32 ![0, 0, 0, 1, 0]
    (pad S4x1x32x33x32 ![0, 0, 0, 0, 0] ![0, 0, 0, 1, 0] ![0, 0, 0, 0, 0] g padZero pads_S4x1x32x32x32_S4x1x32x33x32_000_000_000_010_000 h_S_)
    slices_S4x1x32x33x32_S4x1x32x32x32_0_0_0_1_0
def nbrL0 (g : FVec Ideal S4x1x32x32x32 .f32) : FVec Ideal S4x1x32x32x32 .f32 :=
  extractStridedSlice S4x1x32x32x32 ![0, 0, 0, 0, 0]
    (pad S4x1x32x32x33 ![0, 0, 0, 0, 1] ![0, 0, 0, 0, 0] ![0, 0, 0, 0, 0] g padZero pads_S4x1x32x32x32_S4x1x32x32x33_000_000_000_000_100 h_S_)
    slices_S4x1x32x32x33_S4x1x32x32x32_0_0_0_0_0
def nbrL1 (g : FVec Ideal S4x1x32x32x32 .f32) : FVec Ideal S4x1x32x32x32 .f32 :=
  extractStridedSlice S4x1x32x32x32 ![0, 0, 0, 0, 1]
    (pad S4x1x32x32x33 ![0, 0, 0, 0, 0] ![0, 0, 0, 0, 1] ![0, 0, 0, 0, 0] g padZero pads_S4x1x32x32x32_S4x1x32x32x33_000_000_000_000_010 h_S_)
    slices_S4x1x32x32x33_S4x1x32x32x32_0_0_0_0_1

/-- The sum of the six squared neighbour differences, from a zero array, in the host's order. -/
def stencil (g : FVec Ideal S4x1x32x32x32 .f32) : FVec Ideal S4x1x32x32x32 .f32 :=
  addf (addf (addf (addf (addf (addf
    (broadcastInDim S4x1x32x32x32 ![] bcast_S_S4x1x32x32x32 (constant (F := Ideal) S_ .f32 0x00000000#32))
    (sqDiff g (nbrH0 g))) (sqDiff g (nbrH1 g))) (sqDiff g (nbrW0 g))) (sqDiff g (nbrW1 g))) (sqDiff g (nbrL0 g))) (sqDiff g (nbrL1 g))

/-- The pooled difference from the region's array: the last-axis pool, the division by 192, the unit axis. -/
def head (hs : FVec Ideal S4x32x32x128 .f32) : FVec Ideal S4x1x32x32x32 .f32 :=
  broadcastInDim S4x1x32x32x32 ![0, 2, 3, 4] bcast_S4x32x32x32_S4x1x32x32x32_0_2_3_4
    (Host.divf
      (Host.reduceAdd (F := Ideal) (shapeCast S4x32x32x32x4 hs shapeCasts_S4x32x32x128_S4x32x32x32x4)
        (constant (F := Ideal) S_ .f32 0x00000000#32) reducesTo_S4x32x32x32x4_S4x32x32x32_d4 h_S_)
      (broadcastInDim S4x32x32x32 ![] bcast_S_S4x32x32x32 (constant (F := Ideal) S_ .f32 0x43400000#32)))

/-- Entry `4l + pl` of the last axis. -/
abbrev lrow (l : Fin 32) (p : Fin 4) : Fin 128 := ⟨4 * l.val + p.val, by have := l.isLt; have := p.isLt; omega⟩

/-- `head` at an entry: the word of 0.0 plus the four entries 4l … 4l + 3 of the region's array along its last axis,
    divided by the word of 192.0. -/
theorem head_apply (hs : FVec Ideal S4x32x32x128 .f32) (j : S4x1x32x32x32.Idx) :
    head hs j = Ideal.div (Ideal.ofBits .f32 0x00000000#32 + ∑ pl : Fin 4, hs (ix4 (j 0) (j 2) (j 3) (lrow (j 4) pl)))
      (Ideal.ofBits .f32 0x43400000#32) := by
  unfold head
  refine (broadcastInDim_apply _ bcast_S4x32x32x32_S4x1x32x32x32_0_2_3_4 _ j (ix4 (j 0) (j 2) (j 3) (j 4))
    (fun a => match a with
      | ⟨0, _⟩ => by show (j 0).val = if (4 : Nat) = 1 then 0 else (j 0).val; rw [if_neg (by decide)]
      | ⟨1, _⟩ => by show (j 2).val = if (32 : Nat) = 1 then 0 else (j 2).val; rw [if_neg (by decide)]
      | ⟨2, _⟩ => by show (j 3).val = if (32 : Nat) = 1 then 0 else (j 3).val; rw [if_neg (by decide)]
      | ⟨3, _⟩ => by show (j 4).val = if (32 : Nat) = 1 then 0 else (j 4).val; rw [if_neg (by decide)])).trans ?_
  show Ideal.div (Host.reduceAdd (F := Ideal) (shapeCast S4x32x32x32x4 hs shapeCasts_S4x32x32x128_S4x32x32x32x4)
      (constant (F := Ideal) S_ .f32 0x00000000#32) reducesTo_S4x32x32x32x4_S4x32x32x32_d4 h_S_ (ix4 (j 0) (j 2) (j 3) (j 4)))
    (Ideal.ofBits .f32 0x43400000#32) = _
  refine congrArg (fun s => Ideal.div s _) ?_
  simp only [Host.reduceAdd, Ideal.hostReduceAdd_def]
  rw [Ideal.hostReduceAdd_single reducesTo_S4x32x32x32x4_S4x32x32x32_d4 (by decide)]
  refine congrArg (_ + ·) ?_
  show ∑ pl : Fin 4, _ = _
  refine Finset.sum_congr rfl fun pl _ => ?_
  refine shapeCast_apply hs _ _ (ix4 (j 0) (j 2) (j 3) (lrow (j 4) pl)) ?_
  rw [Shape.rowMajor_val_four, Shape.rowMajor_val_five]
  show (((j 0).val * 32 + (j 2).val) * 32 + (j 3).val) * 128 + (4 * (j 4).val + pl.val)
    = ((((j 0).val * 32 + (j 2).val) * 32 + (j 3).val) * 32 + (j 4).val) * 4 + pl.val
  omega

variable (m : (ℓ : Loc nD τ sig) → Buf (Elt Ideal) ℓ)

set_option maxHeartbeats 4000000 in
/-- What the lines after the region leave in the result buffer. -/
theorem tail_eq (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v36
      = stencil (head ((dats m 0 c).arrAt 2 cfg0.N)) := by
  unfold Pipeline.afterTail₀
  have hW : Pipeline.withArrays (cfgs 0).spec c (V0 m c) (fun w => (dats m 0 c).arrAt w (cfgs 0).N) (Proc.devRef .tc main_v0)
      = (dats m 0 c).arrAt 2 cfg0.N :=
    Pipeline.withArrays_arr (cfgs 0).spec launch0.win.arr_inj c (V0 m c) (fun w => (dats m 0 c).arrAt w (cfgs 0).N) 2
  simp only [hostOps1, hostOps1_1, hostOps1_2, hostOps1_3, hostOps1_4, hostOps1_5, hostOps1_6, hostOps1_7, hostOps1_8,
    hostOps1_9, hostOps1_10, hostOps1_11, hostOps1_12, List.flatten_cons, List.flatten_nil, List.append_nil,
    List.cons_append, List.nil_append]
  after_results_simp
  rw [hW]
  rfl

end Cert.KernelTail

end
-- ==== Proof.LibWindowSum.lean ====
/-
  A 4 × 4 × 4 sum-pool of the three image axes of a [4, 1, 128, 128, 128] array, as the host spells it, read at an entry.

  The array is reshaped to rank 8, [4, 1, 32, 4, 32, 4, 32, 4] — each image axis split into (block, offset below 4) —
  and summed over the three offset axes 3, 5 and 7 from an initial value. A reshape keeps the row-major position, and
  at the ideal values the host's sum over several axes is the initial value plus the finite sum over the source indices
  that drop to the result index. Those indices are the result index with a triple of offsets (ph, pw, pl) inserted, so entry
  (b, 0, h, w, l) of the result is the initial value plus the sum over the 64 triples of the array at
  (b, 0, 4h + ph, 4w + pw, 4l + pl).
-/
import Idealize.ShloMosaic.PureOps.Ideal.Laws
import Idealize.ShloMosaic.Lib.ValueIdx
import Idealize.ShloMosaic.Lib.Pipeline.Value

noncomputable section

open scoped BigOperators

namespace ProofLib.WindowSum

open Idealize.ShloMosaic Idealize.ShloMosaic.ValueIdx

abbrev A5 : Shape := ⟨5, ![4, 1, 128, 128, 128]⟩
abbrev A8 : Shape := ⟨8, ![4, 1, 32, 4, 32, 4, 32, 4]⟩
abbrev P5 : Shape := ⟨5, ![4, 1, 32, 32, 32]⟩

/-- A rank-8 row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- The rank-8 index over the pooled index `j` with the offsets `p = (ph, pw, pl)` on the three summed axes. -/
def win8 (j : P5.Idx) (p : Fin 4 × Fin 4 × Fin 4) : A8.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨p.1.val, p.1.isLt⟩
  | ⟨4, _⟩ => ⟨(j 3).val, (j 3).isLt⟩
  | ⟨5, _⟩ => ⟨p.2.1.val, p.2.1.isLt⟩
  | ⟨6, _⟩ => ⟨(j 4).val, (j 4).isLt⟩
  | ⟨7, _⟩ => ⟨p.2.2.val, p.2.2.isLt⟩

/-- The entry of the rank-5 array under pooled index `j` at the offsets `p`: (b, 0, 4h + ph, 4w + pw, 4l + pl). -/
def cell (j : P5.Idx) (p : Fin 4 × Fin 4 × Fin 4) : A5.Idx := fun a => match a with
  | ⟨0, _⟩ => ⟨(j 0).val, (j 0).isLt⟩
  | ⟨1, _⟩ => ⟨(j 1).val, (j 1).isLt⟩
  | ⟨2, _⟩ => ⟨4 * (j 2).val + p.1.val, by have h : (j 2).val < 32 := (j 2).isLt; have := p.1.isLt; show _ < 128; omega⟩
  | ⟨3, _⟩ => ⟨4 * (j 3).val + p.2.1.val, by have h : (j 3).val < 32 := (j 3).isLt; have := p.2.1.isLt; show _ < 128; omega⟩
  | ⟨4, _⟩ => ⟨4 * (j 4).val + p.2.2.val, by have h : (j 4).val < 32 := (j 4).isLt; have := p.2.2.isLt; show _ < 128; omega⟩

/-- The host's sum over the three offset axes, at the ideal values: the initial value plus the sum over the offsets. -/
theorem hostReduceAdd_window (h' : A8.ReducesTo [3, 5, 7] P5) (x : A8.Idx → EReal) (init : EReal) (j : P5.Idx) :
    Ideal.hostReduceAdd h' x init j = init + ∑ p : Fin 4 × Fin 4 × Fin 4, x (win8 j p) := by
  unfold Ideal.hostReduceAdd
  refine congrArg (init + ·) ?_
  have hd : ∀ (i : A8.Idx), (h'.drop i 0).val = (i 0).val ∧ (h'.drop i 1).val = (i 1).val ∧ (h'.drop i 2).val = (i 2).val
      ∧ (h'.drop i 3).val = (i 4).val ∧ (h'.drop i 4).val = (i 6).val := fun i =>
    ⟨h'.drop_apply_val_of_eq i 0 0, h'.drop_apply_val_of_eq i 1 1, h'.drop_apply_val_of_eq i 2 2,
      h'.drop_apply_val_of_eq i 3 4, h'.drop_apply_val_of_eq i 4 6⟩
  have hleft : ∀ i : A8.Idx, h'.drop i = j → win8 j (⟨(i 3).val, (i 3).isLt⟩, ⟨(i 5).val, (i 5).isLt⟩, ⟨(i 7).val, (i 7).isLt⟩) = i := by
    intro i hi
    obtain ⟨e0, e1, e2, e3, e4⟩ := hd i
    rw [hi] at e0 e1 e2 e3 e4
    funext a
    apply Fin.ext
    match a with
    | ⟨0, _⟩ => exact e0
    | ⟨1, _⟩ => exact e1
    | ⟨2, _⟩ => exact e2
    | ⟨3, _⟩ => rfl
    | ⟨4, _⟩ => exact e3
    | ⟨5, _⟩ => rfl
    | ⟨6, _⟩ => exact e4
    | ⟨7, _⟩ => rfl
  refine Finset.sum_nbij' (fun i => ((⟨(i 3).val, (i 3).isLt⟩ : Fin 4), (⟨(i 5).val, (i 5).isLt⟩ : Fin 4), (⟨(i 7).val, (i 7).isLt⟩ : Fin 4)))
    (win8 j) (fun _ _ => Finset.mem_univ _) ?_ ?_ (fun _ _ => rfl) ?_
  · intro p _
    refine Finset.mem_filter.mpr ⟨Finset.mem_univ _, ?_⟩
    obtain ⟨e0, e1, e2, e3, e4⟩ := hd (win8 j p)
    funext b
    apply Fin.ext
    match b with
    | ⟨0, _⟩ => exact e0
    | ⟨1, _⟩ => exact e1
    | ⟨2, _⟩ => exact e2
    | ⟨3, _⟩ => exact e3
    | ⟨4, _⟩ => exact e4
  · intro i hi
    exact hleft i (Finset.mem_filter.mp hi).2
  · intro i hi
    exact congrArg x (hleft i (Finset.mem_filter.mp hi).2).symm

/-- The reshape to rank 8 read at a window index: the rank-5 array at the cell with the same row-major position. -/
theorem reshape_window {α : Type} (y : A5.Idx → α) (hc : A5.ShapeCasts A8) (j : P5.Idx) (p : Fin 4 × Fin 4 × Fin 4) :
    shapeCast A8 y hc (win8 j p) = y (cell j p) := by
  refine shapeCast_apply y hc _ (cell j p) ?_
  rw [Shape.rowMajor_val_five, rowMajor_val_eight]
  have h1 : (j 1).val < 1 := (j 1).isLt
  show ((((j 0).val * 1 + (j 1).val) * 128 + (4 * (j 2).val + p.1.val)) * 128 + (4 * (j 3).val + p.2.1.val)) * 128
      + (4 * (j 4).val + p.2.2.val)
    = (((((((j 0).val * 1 + (j 1).val) * 32 + (j 2).val) * 4 + p.1.val) * 32 + (j 3).val) * 4 + p.2.1.val) * 32
      + (j 4).val) * 4 + p.2.2.val
  omega

/-- Both: the pooled sum at `j` is the initial value plus the sum over the 64 offsets of the array at the window's cells. -/
theorem pooled_sum (y : A5.Idx → EReal) (hc : A5.ShapeCasts A8) (h' : A8.ReducesTo [3, 5, 7] P5) (init : EReal) (j : P5.Idx) :
    Ideal.hostReduceAdd h' (shapeCast A8 y hc) init j = init + ∑ p : Fin 4 × Fin 4 × Fin 4, y (cell j p) := by
  rw [hostReduceAdd_window]
  exact congrArg (init + ·) (Finset.sum_congr rfl fun p _ => reshape_window y hc j p)

end ProofLib.WindowSum

end
-- ==== Proof.Window.lean ====
/-
  The entries of an input array [4, 3, 128, 128, 128] that one pooled entry (b, 0, h, w, l) averages: channel c at
  image position (4h + ph, 4w + pw, 4l + pl), for c below 3 and the three offsets below 4 — 192 entries.
-/
import proofs.«136829_j88115549045530_2_alg».proof.Proof.LibWindowSum

noncomputable section

namespace Cert.Window

open Idealize.ShloMosaic ProofLib.WindowSum

abbrev X5 : Shape := ⟨5, ![4, 3, 128, 128, 128]⟩

/-- Entry (b, c, 4h + ph, 4w + pw, 4l + pl) of an input array, under the pooled index `j = (b, 0, h, w, l)`. -/
def src (j : P5.Idx) (c : Fin 3) (ph pw pl : Fin 4) : X5.Idx := fun a => match a with
  | ⟨0, _⟩ => ⟨(j 0).val, (j 0).isLt⟩
  | ⟨1, _⟩ => ⟨c.val, c.isLt⟩
  | ⟨2, _⟩ => ⟨4 * (j 2).val + ph.val, by have h : (j 2).val < 32 := (j 2).isLt; have := ph.isLt; show _ < 128; omega⟩
  | ⟨3, _⟩ => ⟨4 * (j 3).val + pw.val, by have h : (j 3).val < 32 := (j 3).isLt; have := pw.isLt; show _ < 128; omega⟩
  | ⟨4, _⟩ => ⟨4 * (j 4).val + pl.val, by have h : (j 4).val < 32 := (j 4).isLt; have := pl.isLt; show _ < 128; omega⟩

end Cert.Window

end
-- ==== Proof.RefPool.lean ====
/-
  The reference's pooled difference, read at an entry.

  The reference averages the three channels of each input (a sum from the word of 0.0, divided by the word of 3.0), pools
  each average over the 4 × 4 × 4 window (a reshape to rank 8, a sum over the three offset axes from the word of 0.0,
  divided by the word of 64.0) and subtracts the two pooled arrays. Entry `j` of the difference is therefore the
  expression below over the 192 entries of each input under `j`.
-/
import proofs.«136829_j88115549045530_2_alg».proof.Proof.Gen.ReferenceIdeal.Read
import proofs.«136829_j88115549045530_2_alg».proof.Proof.Window

noncomputable section

open scoped BigOperators

namespace Cert.RefPool

open Idealize.ShloMosaic Idealize.ShloMosaic.ValueIdx ProofLib.WindowSum Cert.Window
open Cert.ReferenceIdeal Cert.ReferenceIdeal.Gen Cert.ReferenceIdeal.Read

/-- One input's channel average, pooled: entry `j` of the window sum of (the channel sum divided by 3). -/
theorem pooled_mean0 (x0 : FVec Ideal S4x3x128x128x128 .f32) (j : S4x1x32x32x32.Idx) :
    val_main_v9 (F := Ideal) x0 j
      = Ideal.ofBits .f32 0x00000000#32 + ∑ p : Fin 4 × Fin 4 × Fin 4,
          Ideal.div (Ideal.ofBits .f32 0x00000000#32 + ∑ c : Fin 3, x0 (src j c p.1 p.2.1 p.2.2)) (Ideal.ofBits .f32 0x40400000#32) := by
  unfold val_main_v9 val_main_v8
  simp only [Host.reduceAdd, Ideal.hostReduceAdd_def]
  refine (pooled_sum _ _ _ _ j).trans ?_
  refine congrArg (_ + ·) (Finset.sum_congr rfl fun p _ => ?_)
  rw [val_main_v3_apply, val_main_v1_apply, val_main_v0_apply, val_main_v2_apply]
  refine congrArg (fun s => Ideal.div (_ + s) _) (Finset.sum_congr rfl fun c _ => congrArg x0 ?_)
  funext a; apply Fin.ext
  match a with
  | ⟨0, _⟩ => rfl
  | ⟨1, _⟩ => rfl
  | ⟨2, _⟩ => rfl
  | ⟨3, _⟩ => rfl
  | ⟨4, _⟩ => rfl

/-- The same for the second input. -/
theorem pooled_mean1 (x1 : FVec Ideal S4x3x128x128x128 .f32) (j : S4x1x32x32x32.Idx) :
    val_main_v13 (F := Ideal) x1 j
      = Ideal.ofBits .f32 0x00000000#32 + ∑ p : Fin 4 × Fin 4 × Fin 4,
          Ideal.div (Ideal.ofBits .f32 0x00000000#32 + ∑ c : Fin 3, x1 (src j c p.1 p.2.1 p.2.2)) (Ideal.ofBits .f32 0x40400000#32) := by
  unfold val_main_v13 val_main_v12
  simp only [Host.reduceAdd, Ideal.hostReduceAdd_def]
  refine (pooled_sum _ _ _ _ j).trans ?_
  refine congrArg (_ + ·) (Finset.sum_congr rfl fun p _ => ?_)
  rw [val_main_v7_apply, val_main_v5_apply, val_main_v4_apply, val_main_v6_apply]
  refine congrArg (fun s => Ideal.div (_ + s) _) (Finset.sum_congr rfl fun c _ => congrArg x1 ?_)
  funext a; apply Fin.ext
  match a with
  | ⟨0, _⟩ => rfl
  | ⟨1, _⟩ => rfl
  | ⟨2, _⟩ => rfl
  | ⟨3, _⟩ => rfl
  | ⟨4, _⟩ => rfl

/-- Entry `j` of the reference's pooled difference. -/
theorem pooled_diff (x0 x1 : FVec Ideal S4x3x128x128x128 .f32) (j : S4x1x32x32x32.Idx) :
    val_main_v16 (F := Ideal) x0 x1 j
      = Ideal.div (Ideal.ofBits .f32 0x00000000#32 + ∑ p : Fin 4 × Fin 4 × Fin 4,
            Ideal.div (Ideal.ofBits .f32 0x00000000#32 + ∑ c : Fin 3, x0 (src j c p.1 p.2.1 p.2.2)) (Ideal.ofBits .f32 0x40400000#32))
          (Ideal.ofBits .f32 0x42800000#32)
        - Ideal.div (Ideal.ofBits .f32 0x00000000#32 + ∑ p : Fin 4 × Fin 4 × Fin 4,
            Ideal.div (Ideal.ofBits .f32 0x00000000#32 + ∑ c : Fin 3, x1 (src j c p.1 p.2.1 p.2.2)) (Ideal.ofBits .f32 0x40400000#32))
          (Ideal.ofBits .f32 0x42800000#32) := by
  rw [val_main_v16_apply, val_main_v11_apply, val_main_v15_apply, pooled_mean0, pooled_mean1, val_main_v10_apply,
    val_main_v14_apply]
  rfl

end Cert.RefPool

end
-- ==== Proof.PoolAlgebra.lean ====
/-
  The one algebraic law of this certificate, on the extended reals.

  A pooled entry is an average of 3 · 4 · 4 · 4 = 192 differences o − e. One side takes the differences first, sums them
  over the two pooled image axes and the three channels, then over the last pooled axis, and divides once by 192; the other
  averages the channels of o and of e separately (a sum of three divided by 3), sums each over the 4 · 4 · 4 window, divides
  each by 64 and subtracts. On REAL entries both are (∑ o − ∑ e) / 192: sums and differences of reals stay real, the two
  divisors are products with 1/3, 1/64 and 1/192, and 1/3 · 1/64 = 1/192. (At infinite entries the law fails: a difference
  of infinities is not a sum of differences. So the entries are taken real.)
-/
import Idealize.ShloMosaic.PureOps.Ideal
import Idealize.ShloMosaic.PureOps.Ideal.Laws

noncomputable section

open scoped BigOperators

namespace Cert.Pool

open Idealize.ShloMosaic

/-- The word of `3.0` denotes the real 3. -/
theorem ofBits_3 : Ideal.ofBits .f32 0x40400000#32 = ((3 : ℝ) : EReal) := by
  simp [Ideal.ofBits, Ideal.ieee, -EReal.coe_mul]; norm_num

/-- The word of `64.0` denotes the real 64. -/
theorem ofBits_64 : Ideal.ofBits .f32 0x42800000#32 = ((64 : ℝ) : EReal) := by
  simp [Ideal.ofBits, Ideal.ieee, -EReal.coe_mul]; norm_num

/-- The word of `192.0` denotes the real 192. -/
theorem ofBits_192 : Ideal.ofBits .f32 0x43400000#32 = ((192 : ℝ) : EReal) := by
  simp [Ideal.ofBits, Ideal.ieee, -EReal.coe_mul]; norm_num

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A triple sum over the window read innermost-axis-first is the same sum read outermost-axis-first. -/
theorem sum_rev3 (f : Fin 4 → Fin 4 → Fin 4 → ℝ) :
    ∑ pl : Fin 4, ∑ pw : Fin 4, ∑ ph : Fin 4, f ph pw pl = ∑ ph : Fin 4, ∑ pw : Fin 4, ∑ pl : Fin 4, f ph pw pl := by
  rw [Finset.sum_comm]
  rw [Finset.sum_congr rfl fun pw _ => Finset.sum_comm]
  rw [Finset.sum_comm]

/-- The law in the reals. -/
theorem pool_real (A B : Fin 3 → Fin 4 → Fin 4 → Fin 4 → ℝ) :
    (0 + ∑ pl : Fin 4, (((∑ pw : Fin 4, ∑ ph : Fin 4, (A 0 ph pw pl - B 0 ph pw pl))
        + (∑ pw : Fin 4, ∑ ph : Fin 4, (A 1 ph pw pl - B 1 ph pw pl)))
        + (∑ pw : Fin 4, ∑ ph : Fin 4, (A 2 ph pw pl - B 2 ph pw pl)))) * (1 / 192 : ℝ)
      = (0 + ∑ p : Fin 4 × Fin 4 × Fin 4, (0 + ∑ c : Fin 3, A c p.1 p.2.1 p.2.2) * (1 / 3 : ℝ)) * (1 / 64 : ℝ)
        - (0 + ∑ p : Fin 4 × Fin 4 × Fin 4, (0 + ∑ c : Fin 3, B c p.1 p.2.1 p.2.2) * (1 / 3 : ℝ)) * (1 / 64 : ℝ) := by
  simp only [zero_add, Fin.sum_univ_three, Fintype.sum_prod_type, Finset.sum_add_distrib, Finset.sum_sub_distrib,
    ← Finset.sum_mul]
  rw [sum_rev3 (A 0), sum_rev3 (A 1), sum_rev3 (A 2), sum_rev3 (B 0), sum_rev3 (B 1), sum_rev3 (B 2)]
  ring

/-- The law on the extended reals, at real entries: the pooled difference taken first and divided once by 192 is the
    difference of the two staged averages (by 3, then by 64). `z` is the word of `0.0` every sum starts from. -/
theorem pool_eq (A B : Fin 3 → Fin 4 → Fin 4 → Fin 4 → ℝ) :
    Ideal.div (Ideal.ofBits .f32 0x00000000#32 + ∑ pl : Fin 4,
        (((∑ pw : Fin 4, ∑ ph : Fin 4, ((A 0 ph pw pl : EReal) - (B 0 ph pw pl : EReal)))
        + (∑ pw : Fin 4, ∑ ph : Fin 4, ((A 1 ph pw pl : EReal) - (B 1 ph pw pl : EReal))))
        + (∑ pw : Fin 4, ∑ ph : Fin 4, ((A 2 ph pw pl : EReal) - (B 2 ph pw pl : EReal)))))
        (Ideal.ofBits .f32 0x43400000#32)
      = Ideal.div (Ideal.ofBits .f32 0x00000000#32 + ∑ p : Fin 4 × Fin 4 × Fin 4,
            Ideal.div (Ideal.ofBits .f32 0x00000000#32 + ∑ c : Fin 3, (A c p.1 p.2.1 p.2.2 : EReal)) (Ideal.ofBits .f32 0x40400000#32))
          (Ideal.ofBits .f32 0x42800000#32)
        - Ideal.div (Ideal.ofBits .f32 0x00000000#32 + ∑ p : Fin 4 × Fin 4 × Fin 4,
            Ideal.div (Ideal.ofBits .f32 0x00000000#32 + ∑ c : Fin 3, (B c p.1 p.2.1 p.2.2 : EReal)) (Ideal.ofBits .f32 0x40400000#32))
          (Ideal.ofBits .f32 0x42800000#32) := by
  rw [ofBits_3, ofBits_64, ofBits_192, Ideal.ofBits_zero_f32]
  simp only [Ideal.div_coe (by norm_num : (192 : ℝ) ≠ 0), Ideal.div_coe (by norm_num : (64 : ℝ) ≠ 0),
    Ideal.div_coe (by norm_num : (3 : ℝ) ≠ 0)]
  simp only [← EReal.coe_sub, ← coe_sum, ← EReal.coe_add, ← EReal.coe_zero, ← EReal.coe_mul]
  exact congrArg _ (pool_real A B)

end Cert.Pool

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.Finite.lean ====
/-
  The precondition read back: both input arrays hold reals.

  `finite_inputs` is the conjunction of two tests, one per array, each `jnp.all(jnp.abs(x) < inf)`: the comparison of
  every entry's absolute value with the word of +∞, reduced by `and` over all five axes. The conjunction is 1 exactly when
  both tests are, and a test that is 1 says every entry of its array is a real number.
-/
import proofs.«136829_j88115549045530_2_alg».proof.Pre_finite_inputs
import proofs.«136829_j88115549045530_2_alg».proof.Proof.Gen.Pre_finite_inputs
import proofs.«136829_j88115549045530_2_alg».proof.Proof.LibFiniteEntry
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- Under the precondition every entry of both arrays is a real. -/
theorem entries_real (x0 x1 : FVec Ideal S4x3x128x128x128 .f32)
    (h : Cert.Pre_finite_inputs.fn (F := Ideal) x0 x1 = fun _ => 1#1) :
    (∀ i, ∃ r : ℝ, (x0 i : EReal) = (r : EReal)) ∧ (∀ i, ∃ r : ℝ, (x1 i : EReal) = (r : EReal)) := by
  have h0 := congrFun h ix0
  dsimp only [Cert.Pre_finite_inputs.fn] at h0
  obtain ⟨ha, hb⟩ := (ProofLib.Finite.andi_eq_one _ _).mp h0
  exact ⟨fun i => ProofLib.Finite.all_real_of_all_abs_lt_inf x0 _ (fun _ => rfl) _ _ _ ix0 ha i,
    fun i => ProofLib.Finite.all_real_of_all_abs_lt_inf x1 _ (fun _ => rfl) _ _ _ ix0 hb i⟩

end Cert.Finite

end
-- ==== Proof.Bridge.lean ====
/-
  The two pooled differences are one array, on real inputs; and the two programs end with the same stencil of it.

  Kernel side: entry (b, 0, h, w, l) of `head` of the region's array is the word of 0.0 plus the sum over pl below 4 of
  the region's array at (b, h, w, 4l + pl), divided by the word of 192.0; the region's array there is the three
  channels' 4 × 4 window sums of differences. Reference side: the difference of the two inputs' staged averages
  (by 3, then over the 4 × 4 × 4 window by 64). Over the 192 entries of each input under (b, 0, h, w, l) these are the
  two sides of the pooling law, which holds on reals; the precondition makes every entry real.
-/
import proofs.«136829_j88115549045530_2_alg».proof.Proof.KernelTail
import proofs.«136829_j88115549045530_2_alg».proof.Proof.RefPool
import proofs.«136829_j88115549045530_2_alg».proof.Proof.PoolAlgebra
import proofs.«136829_j88115549045530_2_alg».proof.Proof.Finite

set_option maxRecDepth 16384

noncomputable section

open scoped BigOperators

namespace Cert.Bridge

open Idealize.ShloMosaic Idealize.ShloMosaic.ValueIdx ProofLib.PoolRows ProofLib.WindowSum Cert.Window
open Cert.KernelArray Cert.KernelTail

/-- The kernel's pooled difference is the reference's, when every input entry is a real. -/
theorem head_pooled_eq (a0 a1 : FVec Ideal Cert.KernelIdeal.S4x3x128x128x128 .f32)
    (h0 : ∀ i, ∃ r : ℝ, (a0 i : EReal) = (r : EReal)) (h1 : ∀ i, ∃ r : ℝ, (a1 i : EReal) = (r : EReal)) :
    head (pooled a0 a1) = Cert.ReferenceIdeal.Read.val_main_v16 (F := Ideal) a0 a1 := by
  choose A hA using h0
  choose B hB using h1
  funext j
  rw [head_apply, Cert.RefPool.pooled_diff]
  have hsrc : ∀ (k : Fin 3) (ph pw pl : Fin 4),
      (ix5 (j 0) k (frow (j 2) ph) (col4 (j 3) pw) (lrow (j 4) pl) : Cert.KernelIdeal.S4x3x128x128x128.Idx) = src j k ph pw pl := by
    intro k ph pw pl
    funext a
    match a with
    | ⟨0, _⟩ => rfl
    | ⟨1, _⟩ => rfl
    | ⟨2, _⟩ => rfl
    | ⟨3, _⟩ => rfl
    | ⟨4, _⟩ => rfl
  have hcs : ∀ (k : Fin 3) (pl : Fin 4), chanSumA a0 a1 k (j 0) (j 2) (j 3) (lrow (j 4) pl)
      = ∑ pw : Fin 4, ∑ ph : Fin 4, (((A (src j k ph pw pl) : ℝ) : EReal) - ((B (src j k ph pw pl) : ℝ) : EReal)) := by
    intro k pl
    unfold chanSumA
    refine Finset.sum_congr rfl fun pw _ => Finset.sum_congr rfl fun ph _ => ?_
    rw [hsrc, hA, hB]
  have hl : ∀ pl : Fin 4, pooled a0 a1 (ix4 (j 0) (j 2) (j 3) (lrow (j 4) pl))
      = ((∑ pw : Fin 4, ∑ ph : Fin 4, (((A (src j 0 ph pw pl) : ℝ) : EReal) - ((B (src j 0 ph pw pl) : ℝ) : EReal)))
        + (∑ pw : Fin 4, ∑ ph : Fin 4, (((A (src j 1 ph pw pl) : ℝ) : EReal) - ((B (src j 1 ph pw pl) : ℝ) : EReal))))
        + (∑ pw : Fin 4, ∑ ph : Fin 4, (((A (src j 2 ph pw pl) : ℝ) : EReal) - ((B (src j 2 ph pw pl) : ℝ) : EReal))) := by
    intro pl
    show (chanSumA a0 a1 0 (j 0) (j 2) (j 3) (lrow (j 4) pl) + chanSumA a0 a1 1 (j 0) (j 2) (j 3) (lrow (j 4) pl))
      + chanSumA a0 a1 2 (j 0) (j 2) (j 3) (lrow (j 4) pl) = _
    rw [hcs, hcs, hcs]
  simp only [hl, hA, hB]
  exact Cert.Pool.pool_eq (fun k ph pw pl => A (src j k ph pw pl)) (fun k ph pw pl => B (src j k ph pw pl))

/-- The reference's result is the same stencil of its pooled difference (the two programs' last 53 lines coincide). -/
theorem ref_tail (x0 x1 : FVec Ideal Cert.ReferenceIdeal.S4x3x128x128x128 .f32) :
    Cert.ReferenceIdeal.Read.val_main_v47 (F := Ideal) x0 x1 = stencil (Cert.ReferenceIdeal.Read.val_main_v16 (F := Ideal) x0 x1) := rfl

end Cert.Bridge

end
-- ==== Proof.lean ====
/-
  The certificate: a three-channel, 4 × 4 × 4 average-pooled difference of two volumes and its six-neighbour squared
  stencil, computed by a tiled reduction kernel plus a short host tail, against the plain staged-average reference.

  Both programs end with the same stencil of a pooled difference `g` : [4, 1, 32, 32, 32]. The kernel forms `g` as the
  sum of all 192 differences under an entry divided once by 192 (channels and two image axes inside the region, block by
  block over a 4 × 4 grid; the last image axis and the division on the host); the reference as the difference of two
  staged averages (by 3, then by 64). On real inputs — which is what the precondition says — these agree entry by entry,
  so the results agree. The three frame claims are the generated frame runs; nothing was rewritten by the ideal pass.
-/
import proofs.«136829_j88115549045530_2_alg».proof.Defs
import proofs.«136829_j88115549045530_2_alg».proof.Proof.Gen.Kernel
import proofs.«136829_j88115549045530_2_alg».proof.Proof.Gen.Kernel.Skeleton
import proofs.«136829_j88115549045530_2_alg».proof.Proof.Gen.Kernel.Launch
import proofs.«136829_j88115549045530_2_alg».proof.Proof.Gen.Kernel.Points
import proofs.«136829_j88115549045530_2_alg».proof.Proof.Gen.Kernel.Frame
import proofs.«136829_j88115549045530_2_alg».proof.Proof.Gen.KernelIdeal
import proofs.«136829_j88115549045530_2_alg».proof.Proof.Gen.KernelIdeal.Skeleton
import proofs.«136829_j88115549045530_2_alg».proof.Proof.Gen.KernelIdeal.Launch
import proofs.«136829_j88115549045530_2_alg».proof.Proof.Gen.KernelIdeal.Points
import proofs.«136829_j88115549045530_2_alg».proof.Proof.Gen.KernelIdeal.Frame
import proofs.«136829_j88115549045530_2_alg».proof.Proof.Gen.ReferenceIdeal
import proofs.«136829_j88115549045530_2_alg».proof.Proof.Gen.Pre_finite_inputs
import proofs.«136829_j88115549045530_2_alg».proof.Proof.Gen.ReferenceIdeal.Run
import proofs.«136829_j88115549045530_2_alg».proof.Proof.Gen.ReferenceIdeal.Read
import proofs.«136829_j88115549045530_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run with its result named: the stencil of the pooled difference of the input arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v36)
          = Cert.KernelTail.stencil (Cert.KernelTail.head (Cert.KernelArray.pooled
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run Cert.KernelIdeal.defs _ _).mono (fun r h c => ?_) (Cert.KernelIdeal.Gen.run_main m ρ)
  refine ⟨?_, ?_, ?_⟩
  · refine ((h c).2 Cert.KernelIdeal.main_v36 (Pipeline.mem_restRefs_of Cert.KernelIdeal.main_v36 (by decide) (by decide))).trans ?_
    rw [Cert.KernelTail.tail_eq, Cert.KernelArray.final]
  · exact ((h c).1 0).trans (((Cert.KernelIdeal.Gen.dats m 0 c).arrAt_in 0 rfl _).trans
      ((Cert.KernelIdeal.Gen.A_eq m c 0).trans (Cert.KernelIdeal.Gen.V_main_arg0 m c)))
  · exact ((h c).1 1).trans (((Cert.KernelIdeal.Gen.dats m 0 c).arrAt_in 1 rfl _).trans
      ((Cert.KernelIdeal.Gen.A_eq m c 1).trans (Cert.KernelIdeal.Gen.V_main_arg1 m c)))

/-- Both programs end, from memories agreeing on the inputs, with equal results: the stencil of one pooled difference. -/
theorem algebraic : Cert.algebraic_KernelIdeal_ReferenceIdeal := by
  intro m ρ m' ρ' hpre hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1⟩ := Cert.Finite.entries_real _ _ (hpre c)
  rw [Cert.ReferenceIdeal.Read.val_main_v47_eq, Cert.Bridge.ref_tail, (hagree c).1, (hagree c).2]
  exact congrArg Cert.KernelTail.stencil (Cert.Bridge.head_pooled_eq _ _ h0 h1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
